-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x20 : Shape := ⟨2, ![524288, 20]⟩
abbrev S80x20 : Shape := ⟨2, ![80, 20]⟩
abbrev S80 : Shape := ⟨1, ![80]⟩
abbrev S20x20 : Shape := ⟨2, ![20, 20]⟩
abbrev S_ : Shape := ⟨0, ![]⟩

class Facts : Prop where
  bcast_S_S524288x20 : S_.BroadcastsInDim S524288x20 (![] : Fin 0 → Fin S524288x20.rank)
  reducesTo_S524288x20_S_d0_1 : S524288x20.ReducesTo [0, 1] S_
  h_S_ : 0 < S_.numel
  bcast_S_S80x20 : S_.BroadcastsInDim S80x20 (![] : Fin 0 → Fin S80x20.rank)
  reducesTo_S80x20_S_d0_1 : S80x20.ReducesTo [0, 1] S_
  bcast_S_S80 : S_.BroadcastsInDim S80 (![] : Fin 0 → Fin S80.rank)
  reducesTo_S80_S_d0 : S80.ReducesTo [0] S_
  bcast_S_S20x20 : S_.BroadcastsInDim S20x20 (![] : Fin 0 → Fin S20x20.rank)
  reducesTo_S20x20_S_d0_1 : S20x20.ReducesTo [0, 1] S_

variable [Facts]

def fn_part2 {F : FTy → Type} [FloatOps F] (main_arg7 : FVec F S20x20 .f32) (main_v33 : IVec S_ 1) : IVec S_ 1 :=
  let main_v34 : FVec F S20x20 .f32 := Host.absf main_arg7
  let main_cst_12 : FVec F S_ .f32 := constant S_ .f32 0x7F800000#32
  let main_v35 : FVec F S20x20 .f32 := broadcastInDim S20x20 ![] bcast_S_S20x20 main_cst_12
  let main_v36 : IVec S20x20 1 := cmpf .olt main_v34 main_v35
  let main_c_13 : IVec S_ 1 := constantI S_ 1 1#1
  let main_v37 : IVec S_ 1 := (fun x v => Host.reduce IntOp.andi x v reducesTo_S20x20_S_d0_1 h_S_) main_v36 main_c_13
  let main_v38 : IVec S_ 1 := andi main_v33 main_v37
  main_v38

def fn_part1 {F : FTy → Type} [FloatOps F] (main_arg4 : FVec F S80x20 .f32) (main_arg5 : FVec F S80 .f32) (main_arg6 : FVec F S80 .f32) (main_arg7 : FVec F S20x20 .f32) (main_v13 : IVec S_ 1) (main_v16 : IVec S80x20 1) : IVec S_ 1 :=
  let main_c_5 : IVec S_ 1 := constantI S_ 1 1#1
  let main_v17 : IVec S_ 1 := (fun x v => Host.reduce IntOp.andi x v reducesTo_S80x20_S_d0_1 h_S_) main_v16 main_c_5
  let main_v18 : IVec S_ 1 := andi main_v13 main_v17
  let main_v19 : FVec F S80x20 .f32 := Host.absf main_arg4
  let main_cst_6 : FVec F S_ .f32 := constant S_ .f32 0x7F800000#32
  let main_v20 : FVec F S80x20 .f32 := broadcastInDim S80x20 ![] bcast_S_S80x20 main_cst_6
  let main_v21 : IVec S80x20 1 := cmpf .olt main_v19 main_v20
  let main_c_7 : IVec S_ 1 := constantI S_ 1 1#1
  let main_v22 : IVec S_ 1 := (fun x v => Host.reduce IntOp.andi x v reducesTo_S80x20_S_d0_1 h_S_) main_v21 main_c_7
  let main_v23 : IVec S_ 1 := andi main_v18 main_v22
  let main_v24 : FVec F S80 .f32 := Host.absf main_arg5
  let main_cst_8 : FVec F S_ .f32 := constant S_ .f32 0x7F800000#32
  let main_v25 : FVec F S80 .f32 := broadcastInDim S80 ![] bcast_S_S80 main_cst_8
  let main_v26 : IVec S80 1 := cmpf .olt main_v24 main_v25
  let main_c_9 : IVec S_ 1 := constantI S_ 1 1#1
  let main_v27 : IVec S_ 1 := (fun x v => Host.reduce IntOp.andi x v reducesTo_S80_S_d0 h_S_) main_v26 main_c_9
  let main_v28 : IVec S_ 1 := andi main_v23 main_v27
  let main_v29 : FVec F S80 .f32 := Host.absf main_arg6
  let main_cst_10 : FVec F S_ .f32 := constant S_ .f32 0x7F800000#32
  let main_v30 : FVec F S80 .f32 := broadcastInDim S80 ![] bcast_S_S80 main_cst_10
  let main_v31 : IVec S80 1 := cmpf .olt main_v29 main_v30
  let main_c_11 : IVec S_ 1 := constantI S_ 1 1#1
  let main_v32 : IVec S_ 1 := (fun x v => Host.reduce IntOp.andi x v reducesTo_S80_S_d0 h_S_) main_v31 main_c_11
  let main_v33 : IVec S_ 1 := andi main_v28 main_v32
  fn_part2 (F := F) main_arg7 main_v33

def fn {F : FTy → Type} [FloatOps F] (main_arg0 : FVec F S524288x20 .f32) (main_arg1 : FVec F S524288x20 .f32) (main_arg2 : FVec F S524288x20 .f32) (main_arg3 : FVec F S80x20 .f32) (main_arg4 : FVec F S80x20 .f32) (main_arg5 : FVec F S80 .f32) (main_arg6 : FVec F S80 .f32) (main_arg7 : FVec F S20x20 .f32) : IVec S_ 1 :=
  let main_v0 : FVec F S524288x20 .f32 := Host.absf main_arg0
  let main_cst : FVec F S_ .f32 := constant S_ .f32 0x7F800000#32
  let main_v1 : FVec F S524288x20 .f32 := broadcastInDim S524288x20 ![] bcast_S_S524288x20 main_cst
  let main_v2 : IVec S524288x20 1 := cmpf .olt main_v0 main_v1
  let main_c : IVec S_ 1 := constantI S_ 1 1#1
  let main_v3 : IVec S_ 1 := (fun x v => Host.reduce IntOp.andi x v reducesTo_S524288x20_S_d0_1 h_S_) main_v2 main_c
  let main_v4 : FVec F S524288x20 .f32 := Host.absf main_arg1
  let main_cst_0 : FVec F S_ .f32 := constant S_ .f32 0x7F800000#32
  let main_v5 : FVec F S524288x20 .f32 := broadcastInDim S524288x20 ![] bcast_S_S524288x20 main_cst_0
  let main_v6 : IVec S524288x20 1 := cmpf .olt main_v4 main_v5
  let main_c_1 : IVec S_ 1 := constantI S_ 1 1#1
  let main_v7 : IVec S_ 1 := (fun x v => Host.reduce IntOp.andi x v reducesTo_S524288x20_S_d0_1 h_S_) main_v6 main_c_1
  let main_v8 : IVec S_ 1 := andi main_v3 main_v7
  let main_v9 : FVec F S524288x20 .f32 := Host.absf main_arg2
  let main_cst_2 : FVec F S_ .f32 := constant S_ .f32 0x7F800000#32
  let main_v10 : FVec F S524288x20 .f32 := broadcastInDim S524288x20 ![] bcast_S_S524288x20 main_cst_2
  let main_v11 : IVec S524288x20 1 := cmpf .olt main_v9 main_v10
  let main_c_3 : IVec S_ 1 := constantI S_ 1 1#1
  let main_v12 : IVec S_ 1 := (fun x v => Host.reduce IntOp.andi x v reducesTo_S524288x20_S_d0_1 h_S_) main_v11 main_c_3
  let main_v13 : IVec S_ 1 := andi main_v8 main_v12
  let main_v14 : FVec F S80x20 .f32 := Host.absf main_arg3
  let main_cst_4 : FVec F S_ .f32 := constant S_ .f32 0x7F800000#32
  let main_v15 : FVec F S80x20 .f32 := broadcastInDim S80x20 ![] bcast_S_S80x20 main_cst_4
  let main_v16 : IVec S80x20 1 := cmpf .olt main_v14 main_v15
  fn_part1 (F := F) main_arg4 main_arg5 main_arg6 main_arg7 main_v13 main_v16
-- ==== Kernel.lean ====
abbrev S524288x20 : Shape := ⟨2, ![524288, 20]⟩
abbrev S80x20 : Shape := ⟨2, ![80, 20]⟩
abbrev S80 : Shape := ⟨1, ![80]⟩
abbrev S20x20 : Shape := ⟨2, ![20, 20]⟩
abbrev S80x1 : Shape := ⟨2, ![80, 1]⟩
abbrev S4096x20 : Shape := ⟨2, ![4096, 20]⟩
abbrev S80x4096 : Shape := ⟨2, ![80, 4096]⟩
abbrev S20x4096 : Shape := ⟨2, ![20, 4096]⟩

abbrev nBuf : Space → Nat
  | .hbm => 12
  | .vmem => 14
  | .smem => 0
  | _ => 0

abbrev bufTy : (tb : Table) → Fin (tcTables nBuf tb) → BufTy
  | .hbm, ⟨0, _⟩ => ⟨S524288x20, .f32⟩
  | .hbm, ⟨1, _⟩ => ⟨S524288x20, .f32⟩
  | .hbm, ⟨2, _⟩ => ⟨S524288x20, .f32⟩
  | .hbm, ⟨3, _⟩ => ⟨S80x20, .f32⟩
  | .hbm, ⟨4, _⟩ => ⟨S80x20, .f32⟩
  | .hbm, ⟨5, _⟩ => ⟨S80, .f32⟩
  | .hbm, ⟨6, _⟩ => ⟨S80, .f32⟩
  | .hbm, ⟨7, _⟩ => ⟨S20x20, .f32⟩
  | .hbm, ⟨8, _⟩ => ⟨S80, .f32⟩
  | .hbm, ⟨9, _⟩ => ⟨S80x1, .f32⟩
  | .hbm, ⟨10, _⟩ => ⟨S524288x20, .f32⟩
  | .hbm, ⟨11, _⟩ => ⟨S524288x20, .f32⟩
  | .local _ .vmem, ⟨0, _⟩ => ⟨S4096x20, .f32⟩
  | .local _ .vmem, ⟨1, _⟩ => ⟨S4096x20, .f32⟩
  | .local _ .vmem, ⟨2, _⟩ => ⟨S4096x20, .f32⟩
  | .local _ .vmem, ⟨3, _⟩ => ⟨S4096x20, .f32⟩
  | .local _ .vmem, ⟨4, _⟩ => ⟨S4096x20, .f32⟩
  | .local _ .vmem, ⟨5, _⟩ => ⟨S4096x20, .f32⟩
  | .local _ .vmem, ⟨6, _⟩ => ⟨S80x20, .f32⟩
  | .local _ .vmem, ⟨7, _⟩ => ⟨S80x20, .f32⟩
  | .local _ .vmem, ⟨8, _⟩ => ⟨S80x1, .f32⟩
  | .local _ .vmem, ⟨9, _⟩ => ⟨S20x20, .f32⟩
  | .local _ .vmem, ⟨10, _⟩ => ⟨S4096x20, .f32⟩
  | .local _ .vmem, ⟨11, _⟩ => ⟨S4096x20, .f32⟩
  | .local _ .vmem, ⟨12, _⟩ => ⟨S4096x20, .f32⟩
  | .local _ .vmem, ⟨13, _⟩ => ⟨S4096x20, .f32⟩
  | _, _ => ⟨S524288x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S80x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x20 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x20 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S80_S80x1 : S80.ShapeCasts S80x1
  inb_S4096x20_S4096x20_0_0 : ∀ a, (![0, 0] : Fin 2 → Nat) a + S4096x20.size a ≤ S4096x20.size a
  h_S4096x20 : 0 < S4096x20.numel
  bitsLt_bf16_f32 : FTy.bits .bf16 < FTy.bits .f32
  inb_S80x20_S80x20_0_0 : ∀ a, (![0, 0] : Fin 2 → Nat) a + S80x20.size a ≤ S80x20.size a
  h_S80x20 : 0 < S80x20.numel
  inb_S80x1_S80x1_0_0 : ∀ a, (![0, 0] : Fin 2 → Nat) a + S80x1.size a ≤ S80x1.size a
  h_S80x1 : 0 < S80x1.numel
  shapeCasts_S80x1_S80x1 : S80x1.ShapeCasts S80x1
  broadcasts_S80x1_S80x4096 : S80x1.Broadcasts S80x4096
  slices_S80x4096_o0_0_S20x4096 : S80x4096.Slices ![0, 0] S20x4096
  slices_S80x4096_o20_0_S20x4096 : S80x4096.Slices ![20, 0] S20x4096
  slices_S80x4096_o40_0_S20x4096 : S80x4096.Slices ![40, 0] S20x4096
  slices_S80x4096_o60_0_S20x4096 : S80x4096.Slices ![60, 0] S20x4096
  transposes_S4096x20_p1_0_S20x4096 : S4096x20.Transposes [1, 0] S20x4096
  inb_S20x20_S20x20_0_0 : ∀ a, (![0, 0] : Fin 2 → Nat) a + S20x20.size a ≤ S20x20.size a
  h_S20x20 : 0 < S20x20.numel
  transposes_S20x4096_p1_0_S4096x20 : S20x4096.Transposes [1, 0] S4096x20
  dot_S80x20_S4096x20_S80x4096_1_1_0_0_n_n_wf : DotDims.WF S80x20 S4096x20 S80x4096 [1] [1] [0] [0] [] []
  dot_S20x20_S20x4096_S20x4096_1_0_0_1_n_n_wf : DotDims.WF S20x20 S20x4096 S20x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x20.size a ≤ S524288x20.size a
  hwx0_0 : ∀ i : grid0.Coords, EltTy.bits .f32 = 32 ∨ (Rect.block (s := S524288x20) S4096x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x20.size a ≤ S524288x20.size a
  hwx0_1 : ∀ i : grid0.Coords, EltTy.bits .f32 = 32 ∨ (Rect.block (s := S524288x20) S4096x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x20.size a ≤ S524288x20.size a
  hwx0_2 : ∀ i : grid0.Coords, EltTy.bits .f32 = 32 ∨ (Rect.block (s := S524288x20) S4096x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x20.size a ≤ S80x20.size a
  hwx0_3 : ∀ i : grid0.Coords, EltTy.bits .f32 = 32 ∨ (Rect.block (s := S80x20) S80x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S80x20.size a ≤ S80x20.size a
  hwx0_4 : ∀ i : grid0.Coords, EltTy.bits .f32 = 32 ∨ (Rect.block (s := S80x20) S80x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S80x1.size a ≤ S80x1.size a
  hwx0_5 : ∀ i : grid0.Coords, EltTy.bits .f32 = 32 ∨ (Rect.block (s := S80x1) S80x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x20.size a ≤ S20x20.size a
  hwx0_6 : ∀ i : grid0.Coords, EltTy.bits .f32 = 32 ∨ (Rect.block (s := S20x20) S20x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x20.size a ≤ S524288x20.size a
  hwx0_7 : ∀ i : grid0.Coords, EltTy.bits .f32 = 32 ∨ (Rect.block (s := S524288x20) S4096x20.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x20.size a ≤ S524288x20.size a
  hwx0_8 : ∀ i : grid0.Coords, EltTy.bits .f32 = 32 ∨ (Rect.block (s := S524288x20) S4096x20.size (cc0_transform_8 i) (hinb0_8 i)).WholeWords (EltTy.packing .f32)

variable [Facts₀]

def dot_S80x20_S4096x20_S80x4096_1_1_0_0_n_n : DotDims S80x20 S4096x20 S80x4096 where
  lhsContracting := [1]
  rhsContracting := [1]
  lhsNonContracting := [0]
  rhsNonContracting := [0]
  lhsBatch := []
  rhsBatch := []
  wf := dot_S80x20_S4096x20_S80x4096_1_1_0_0_n_n_wf
def dot_S20x20_S20x4096_S20x4096_1_0_0_1_n_n : DotDims S20x20 S20x4096 S20x4096 where
  lhsContracting := [1]
  rhsContracting := [0]
  lhsNonContracting := [0]
  rhsNonContracting := [1]
  lhsBatch := []
  rhsBatch := []
  wf := dot_S20x20_S20x4096_S20x4096_1_0_0_1_n_n_wf

abbrev win0_0 : Pipeline.Window sig grid0 :=
  Pipeline.Window.ofSpec (Memref.whole main_arg0) S4096x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S80x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S80x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S80x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S20x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S4096x20.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S4096x20.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S524288x20 : Shape := ⟨2, ![524288, 20]⟩
abbrev S80x20 : Shape := ⟨2, ![80, 20]⟩
abbrev S80 : Shape := ⟨1, ![80]⟩
abbrev S20x20 : Shape := ⟨2, ![20, 20]⟩
abbrev S20x80 : Shape := ⟨2, ![20, 80]⟩
abbrev S524288x80 : Shape := ⟨2, ![524288, 80]⟩
abbrev S1x80 : Shape := ⟨2, ![1, 80]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S524288x20, .f32⟩
  | .hbm, ⟨1, _⟩ => ⟨S524288x20, .f32⟩
  | .hbm, ⟨2, _⟩ => ⟨S524288x20, .f32⟩
  | .hbm, ⟨3, _⟩ => ⟨S80x20, .f32⟩
  | .hbm, ⟨4, _⟩ => ⟨S80x20, .f32⟩
  | .hbm, ⟨5, _⟩ => ⟨S80, .f32⟩
  | .hbm, ⟨6, _⟩ => ⟨S80, .f32⟩
  | .hbm, ⟨7, _⟩ => ⟨S20x20, .f32⟩
  | .hbm, ⟨8, _⟩ => ⟨S20x80, .f32⟩
  | .hbm, ⟨9, _⟩ => ⟨S524288x80, .f32⟩
  | .hbm, ⟨10, _⟩ => ⟨S20x80, .f32⟩
  | .hbm, ⟨11, _⟩ => ⟨S524288x80, .f32⟩
  | .hbm, ⟨12, _⟩ => ⟨S524288x80, .f32⟩
  | .hbm, ⟨13, _⟩ => ⟨S80, .f32⟩
  | .hbm, ⟨14, _⟩ => ⟨S1x80, .f32⟩
  | .hbm, ⟨15, _⟩ => ⟨S524288x80, .f32⟩
  | .hbm, ⟨16, _⟩ => ⟨S524288x80, .f32⟩
  | .hbm, ⟨17, _⟩ => ⟨S524288x20, .f32⟩
  | .hbm, ⟨18, _⟩ => ⟨S524288x20, .f32⟩
  | .hbm, ⟨19, _⟩ => ⟨S524288x20, .f32⟩
  | .hbm, ⟨20, _⟩ => ⟨S524288x20, .f32⟩
  | .hbm, ⟨21, _⟩ => ⟨S524288x20, .f32⟩
  | .hbm, ⟨22, _⟩ => ⟨S524288x20, .f32⟩
  | .hbm, ⟨23, _⟩ => ⟨S_, .f32⟩
  | .hbm, ⟨24, _⟩ => ⟨S524288x20, .f32⟩
  | .hbm, ⟨25, _⟩ => ⟨S524288x20, .f32⟩
  | .hbm, ⟨26, _⟩ => ⟨S_, .f32⟩
  | .hbm, ⟨27, _⟩ => ⟨S524288x20, .f32⟩
  | .hbm, ⟨28, _⟩ => ⟨S524288x20, .f32⟩
  | .hbm, ⟨29, _⟩ => ⟨S524288x20, .f32⟩
  | .hbm, ⟨30, _⟩ => ⟨S524288x20, .f32⟩
  | .hbm, ⟨31, _⟩ => ⟨S524288x20, .f32⟩
  | .hbm, ⟨32, _⟩ => ⟨S_, .f32⟩
  | .hbm, ⟨33, _⟩ => ⟨S524288x20, .f32⟩
  | .hbm, ⟨34, _⟩ => ⟨S524288x20, .f32⟩
  | .hbm, ⟨35, _⟩ => ⟨S_, .f32⟩
  | .hbm, ⟨36, _⟩ => ⟨S524288x20, .f32⟩
  | .hbm, ⟨37, _⟩ => ⟨S524288x20, .f32⟩
  | .hbm, ⟨38, _⟩ => ⟨S524288x20, .f32⟩
  | .hbm, ⟨39, _⟩ => ⟨S524288x20, .f32⟩
  | .hbm, ⟨40, _⟩ => ⟨S524288x20, .f32⟩
  | .hbm, ⟨41, _⟩ => ⟨S524288x20, .f32⟩
  | .hbm, ⟨42, _⟩ => ⟨S524288x20, .f32⟩
  | .hbm, ⟨43, _⟩ => ⟨S_, .f32⟩
  | .hbm, ⟨44, _⟩ => ⟨S524288x20, .f32⟩
  | .hbm, ⟨45, _⟩ => ⟨S524288x20, .f32⟩
  | .hbm, ⟨46, _⟩ => ⟨S_, .f32⟩
  | .hbm, ⟨47, _⟩ => ⟨S524288x20, .f32⟩
  | .hbm, ⟨48, _⟩ => ⟨S524288x20, .f32⟩
  | .hbm, ⟨49, _⟩ => ⟨S524288x20, .f32⟩
  | .hbm, ⟨50, _⟩ => ⟨S524288x20, .f32⟩
  | .hbm, ⟨51, _⟩ => ⟨S20x20, .f32⟩
  | .hbm, ⟨52, _⟩ => ⟨S524288x20, .f32⟩
  | .hbm, ⟨53, _⟩ => ⟨S524288x20, .f32⟩
  | _, _ => ⟨S524288x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  transposes_S80x20_S20x80_1_0 : S80x20.Transposes [1, 0] S20x80
  bcast_S80_S1x80_1 : S80.BroadcastsInDim S1x80 (![1] : Fin 1 → Fin S1x80.rank)
  bcast_S1x80_S524288x80_0_1 : S1x80.BroadcastsInDim S524288x80 (![0, 1] : Fin 2 → Fin S524288x80.rank)
  slices_S524288x80_S524288x20_0_0 : S524288x80.Slices ![0, 0] S524288x20
  slices_S524288x80_S524288x20_0_20 : S524288x80.Slices ![0, 20] S524288x20
  slices_S524288x80_S524288x20_0_40 : S524288x80.Slices ![0, 40] S524288x20
  slices_S524288x80_S524288x20_0_60 : S524288x80.Slices ![0, 60] S524288x20
  bcast_S_S524288x20 : S_.BroadcastsInDim S524288x20 (![] : Fin 0 → Fin S524288x20.rank)
  transposes_S20x20_S20x20_1_0 : S20x20.Transposes [1, 0] S20x20
  dot_S524288x20_S20x80_S524288x80_1_0_0_1_n_n_wf : DotDims.WF S524288x20 S20x80 S524288x80 [1] [0] [0] [1] [] []
  dot_S524288x20_S20x20_S524288x20_1_0_0_1_n_n_wf : DotDims.WF S524288x20 S20x20 S524288x20 [1] [0] [0] [1] [] []

variable [Facts₀]

def dot_S524288x20_S20x80_S524288x80_1_0_0_1_n_n : DotDims S524288x20 S20x80 S524288x80 where
  lhsContracting := [1]
  rhsContracting := [0]
  lhsNonContracting := [0]
  rhsNonContracting := [1]
  lhsBatch := []
  rhsBatch := []
  wf := dot_S524288x20_S20x80_S524288x80_1_0_0_1_n_n_wf
def dot_S524288x20_S20x20_S524288x20_1_0_0_1_n_n : DotDims S524288x20 S20x20 S524288x20 where
  lhsContracting := [1]
  rhsContracting := [0]
  lhsNonContracting := [0]
  rhsNonContracting := [1]
  lhsBatch := []
  rhsBatch := []
  wf := dot_S524288x20_S20x20_S524288x20_1_0_0_1_n_n_wf

class Facts : Prop extends Facts₀ where

variable [Facts]
-- ==== Proof.Cell.lean ====
/-
  The cell, as mathematics: one step of an LSTM cell followed by a lateral mixing of the hidden units,
  over the extended reals, for a batch of B rows of 20 units each.

  For a row b, the 80 gate pre-activations are
      gate b j = (Σ_k W_ih (j, k) · x (b, k)  +  Σ_k W_hh (j, k) · h (b, k))  +  β j,        β j = b_ih j + b_hh j,
  rows 0–19 the input gate, 20–39 the forget gate, 40–59 the candidate and 60–79 the output gate. With σ
  the logistic function, for a unit u
      c' (b, u) = σ (gate b (20 + u)) · c (b, u)  +  σ (gate b u) · tanh (gate b (40 + u)),
      ĥ  (b, u) = σ (gate b (60 + u)) · tanh (c' (b, u)),
      h' (b, u) = tanh (Σ_v W_lat (u, v) · ĥ (b, v)).
  The two results are h' and c'. Nothing here asks the entries to be finite: the sums, products, σ and tanh are
  total on the extended reals. Every row is computed from that row of x, h and c alone (`cellNext_row`,
  `hiddenNext_row`): so the rows of a block of consecutive rows, computed from the block, are the rows of the
  whole batch — which is why the number of rows B is a parameter.
-/
import Idealize.ShloMosaic.PureOps.Ideal
import Idealize.ShloMosaic.Lib.ValueIdx

noncomputable section

open scoped BigOperators

namespace Cert.Cell

open Idealize.ShloMosaic Idealize.ShloMosaic.ValueIdx

/-- The shape of W_ih and W_hh: a row per gate pre-activation. -/
abbrev Gates : Shape := ⟨2, ![80, 20]⟩
/-- The shape of b_ih and b_hh. -/
abbrev Bias : Shape := ⟨1, ![80]⟩
/-- The shape of W_lat. -/
abbrev Lat : Shape := ⟨2, ![20, 20]⟩

/-- Row `o + u` of the 80 gate rows: unit `u` of the gate whose rows start at `o`. -/
def gateRow (o : Nat) (ho : o + 20 ≤ 80) (u : Fin 20) : Fin 80 := ⟨o + u.val, by have := u.isLt; omega⟩

/-- The two bias vectors, summed. -/
def biasSum (bi bh : Bias.Idx → EReal) : Fin 80 → EReal := fun j => bi (ix1 j) + bh (ix1 j)

section
variable {B : Nat} (X H C : (⟨2, ![B, 20]⟩ : Shape).Idx → EReal) (Wi Wh : Gates.Idx → EReal) (β : Fin 80 → EReal)
  (Wl : Lat.Idx → EReal)

/-- Gate pre-activation `j` of row `b`. -/
def gate (b : Fin B) (j : Fin 80) : EReal :=
  ((∑ k : Fin 20, Wi (ix2 j k) * X (ix2 b k)) + (∑ k : Fin 20, Wh (ix2 j k) * H (ix2 b k))) + β j

/-- The next cell state of unit `u` of row `b`. -/
def cellNext (b : Fin B) (u : Fin 20) : EReal :=
  Ideal.logistic (gate X H Wi Wh β b (gateRow 20 (by decide) u)) * C (ix2 b u)
    + Ideal.logistic (gate X H Wi Wh β b (gateRow 0 (by decide) u)) * Ideal.tanh (gate X H Wi Wh β b (gateRow 40 (by decide) u))

/-- The LSTM's hidden output of unit `u` of row `b`, before the lateral mixing. -/
def hidden (b : Fin B) (u : Fin 20) : EReal :=
  Ideal.logistic (gate X H Wi Wh β b (gateRow 60 (by decide) u)) * Ideal.tanh (cellNext X H C Wi Wh β b u)

/-- The next hidden state of unit `u` of row `b`: tanh of the lateral mixture. -/
def hiddenNext (b : Fin B) (u : Fin 20) : EReal :=
  Ideal.tanh (∑ v : Fin 20, Wl (ix2 u v) * hidden X H C Wi Wh β b v)

/-- The next cell state as an array. -/
def cellArr : (⟨2, ![B, 20]⟩ : Shape).Idx → EReal := fun i => cellNext X H C Wi Wh β (i 0) (i 1)

/-- The next hidden state as an array. -/
def hiddenArr : (⟨2, ![B, 20]⟩ : Shape).Idx → EReal := fun i => hiddenNext X H C Wi Wh β Wl (i 0) (i 1)

end

/-! ## A row's results depend on that row alone -/

section
variable {B B' : Nat} (X H C : (⟨2, ![B, 20]⟩ : Shape).Idx → EReal) (X' H' C' : (⟨2, ![B', 20]⟩ : Shape).Idx → EReal)
  (Wi Wh : Gates.Idx → EReal) (β : Fin 80 → EReal) (Wl : Lat.Idx → EReal) (b : Fin B) (b' : Fin B')
  (hX : ∀ k : Fin 20, X (ix2 b k) = X' (ix2 b' k)) (hH : ∀ k : Fin 20, H (ix2 b k) = H' (ix2 b' k))
  (hC : ∀ k : Fin 20, C (ix2 b k) = C' (ix2 b' k))

include hX hH in
/-- If row `b` of x and h is row `b'` of x' and h', the gates of the two rows agree. -/
theorem gate_row (j : Fin 80) : gate X H Wi Wh β b j = gate X' H' Wi Wh β b' j := by
  unfold gate
  simp only [hX, hH]

include hX hH hC in
/-- Likewise the next cell states, given the rows of c and c' agree too. -/
theorem cellNext_row (u : Fin 20) : cellNext X H C Wi Wh β b u = cellNext X' H' C' Wi Wh β b' u := by
  unfold cellNext
  rw [gate_row X H X' H' Wi Wh β b b' hX hH, gate_row X H X' H' Wi Wh β b b' hX hH,
    gate_row X H X' H' Wi Wh β b b' hX hH, hC]

include hX hH hC in
/-- Likewise the hidden outputs, -/
theorem hidden_row (u : Fin 20) : hidden X H C Wi Wh β b u = hidden X' H' C' Wi Wh β b' u := by
  unfold hidden
  rw [gate_row X H X' H' Wi Wh β b b' hX hH, cellNext_row X H C X' H' C' Wi Wh β b b' hX hH hC]

include hX hH hC in
/-- and the next hidden states. -/
theorem hiddenNext_row (u : Fin 20) : hiddenNext X H C Wi Wh β Wl b u = hiddenNext X' H' C' Wi Wh β Wl b' u := by
  unfold hiddenNext
  simp only [hidden_row X H C X' H' C' Wi Wh β b b' hX hH hC]

end

/-- The next cell state of a row, when every operand is replaced by an equal one and the row by an equal row. -/
theorem cellNext_congr {B B' : Nat} (X H C : (⟨2, ![B, 20]⟩ : Shape).Idx → EReal) (X' H' C' : (⟨2, ![B', 20]⟩ : Shape).Idx → EReal)
    (Wi Wi' Wh Wh' : Gates.Idx → EReal) (β β' : Fin 80 → EReal) (b : Fin B) (b' : Fin B')
    (hX : ∀ k : Fin 20, X (ix2 b k) = X' (ix2 b' k)) (hH : ∀ k : Fin 20, H (ix2 b k) = H' (ix2 b' k))
    (hC : ∀ k : Fin 20, C (ix2 b k) = C' (ix2 b' k)) (hWi : Wi = Wi') (hWh : Wh = Wh') (hβ : β = β') (u : Fin 20) :
    cellNext X H C Wi Wh β b u = cellNext X' H' C' Wi' Wh' β' b' u := by
  subst hWi hWh hβ
  exact cellNext_row X H C X' H' C' Wi Wh β b b' hX hH hC u

/-- The next hidden state of a row, likewise. -/
theorem hiddenNext_congr {B B' : Nat} (X H C : (⟨2, ![B, 20]⟩ : Shape).Idx → EReal) (X' H' C' : (⟨2, ![B', 20]⟩ : Shape).Idx → EReal)
    (Wi Wi' Wh Wh' : Gates.Idx → EReal) (β β' : Fin 80 → EReal) (Wl Wl' : Lat.Idx → EReal) (b : Fin B) (b' : Fin B')
    (hX : ∀ k : Fin 20, X (ix2 b k) = X' (ix2 b' k)) (hH : ∀ k : Fin 20, H (ix2 b k) = H' (ix2 b' k))
    (hC : ∀ k : Fin 20, C (ix2 b k) = C' (ix2 b' k)) (hWi : Wi = Wi') (hWh : Wh = Wh') (hβ : β = β') (hWl : Wl = Wl')
    (u : Fin 20) :
    hiddenNext X H C Wi Wh β Wl b u = hiddenNext X' H' C' Wi' Wh' β' Wl' b' u := by
  subst hWi hWh hβ hWl
  exact hiddenNext_row X H C X' H' C' Wi Wh β Wl b b' hX hH hC u

/-! ## The logistic function as the host spells it -/

/-- The float pattern 0x3F800000 is the number one. -/
theorem one_f32 : Ideal.ofBits .f32 0x3F800000#32 = 1 := by
  simp [Ideal.ofBits, Ideal.ieee, -EReal.coe_mul]; norm_num

/-- The logistic function spelt out with the host's operations, 1 / (1 + exp (-g)), is the logistic function. -/
theorem host_logistic (g : Ideal .f32) :
    FloatOps.hostDivf (FloatOps.ofBits .f32 0x3F800000#32 : Ideal .f32)
        (FloatOps.addf (FloatOps.ofBits .f32 0x3F800000#32) (FloatOps.hostUnary .exp (FloatOps.hostNegf g)))
      = Ideal.logistic g := by
  rw [Ideal.ofBits_def, one_f32]
  rfl

end Cert.Cell

end
-- ==== Proof.RefCell.lean ====
/-
  The reference computes the cell.

  Read one operation at a time (the generated read-at-an-index lemmas), the reference's 80-column array of
  gate pre-activations is, at row b and column j, `Cell.gate b j`: its two products put the batch row on the
  left, Σ_k x (b, k) · W (j, k), which is the cell's Σ_k W (j, k) · x (b, k) term by term because multiplication
  of extended reals commutes; the bias is broadcast along the rows. Its four column slices are the four gates;
  its logistic function, spelt 1 / (1 + exp (-g)), is the logistic function; and its last product,
  Σ_v ĥ (b, v) · W_lat (u, v), is the lateral mixture, again by commutativity.
-/
import proofs.«162781_j66915590472098_2_alg».proof.Proof.Gen.ReferenceIdeal.Read
import proofs.«162781_j66915590472098_2_alg».proof.Proof.Cell

noncomputable section

open scoped BigOperators

namespace Cert.ReferenceIdeal.RefValue

open Cert.ReferenceIdeal Cert.ReferenceIdeal.Read Idealize.ShloMosaic Idealize.ShloMosaic.ValueIdx

variable (x0 x1 x2 : (⟨S524288x20, .f32⟩ : BufTy).Contents (Elt Ideal)) (x3 x4 : (⟨S80x20, .f32⟩ : BufTy).Contents (Elt Ideal))
  (x5 x6 : (⟨S80, .f32⟩ : BufTy).Contents (Elt Ideal)) (x7 : (⟨S20x20, .f32⟩ : BufTy).Contents (Elt Ideal))

/-- The array of gate pre-activations, at row `b` and column `j`. -/
theorem gate_eq (b : Fin 524288) (j : Fin 80) :
    val_main_v8 (F := Ideal) x0 x1 x3 x4 x5 x6 (ix2 b j) = Cell.gate x0 x1 x3 x4 (Cell.biasSum x5 x6) b j := by
  have el1 : ∀ k : Fin 20, lidx_main_v1 (ix2 b j) k = ix2 b k := fun k => funext fun a => by
    match a with | ⟨0, _⟩ => rfl | ⟨1, _⟩ => rfl
  have er1 : ∀ k : Fin 20, idx_main_v0 (ridx_main_v1 (ix2 b j) k) = ix2 j k := fun k => funext fun a => by
    match a with | ⟨0, _⟩ => rfl | ⟨1, _⟩ => rfl
  have el3 : ∀ k : Fin 20, lidx_main_v3 (ix2 b j) k = ix2 b k := fun k => funext fun a => by
    match a with | ⟨0, _⟩ => rfl | ⟨1, _⟩ => rfl
  have er3 : ∀ k : Fin 20, idx_main_v2 (ridx_main_v3 (ix2 b j) k) = ix2 j k := fun k => funext fun a => by
    match a with | ⟨0, _⟩ => rfl | ⟨1, _⟩ => rfl
  have eb : idx_main_v6 (idx_main_v7 (ix2 b j)) = ix1 j := funext fun a => by
    match a with | ⟨0, _⟩ => rfl
  rw [val_main_v8_apply, val_main_v4_apply, val_main_v1_apply, val_main_v3_apply, val_main_v7_apply, val_main_v6_apply,
    val_main_v5_apply]
  simp only [val_main_v0_apply, val_main_v2_apply, el1, er1, el3, er3, eb]
  unfold Cell.gate Cell.biasSum
  show ((∑ k : Fin 20, x0 (ix2 b k) * x3 (ix2 j k)) + (∑ k : Fin 20, x1 (ix2 b k) * x4 (ix2 j k))) + (x5 (ix1 j) + x6 (ix1 j)) = _
  rw [Finset.sum_congr rfl fun k _ => mul_comm (x0 (ix2 b k)) (x3 (ix2 j k)),
    Finset.sum_congr rfl fun k _ => mul_comm (x1 (ix2 b k)) (x4 (ix2 j k))]

/-- The slice of columns `o` to `o + 19` at (b, u) is gate row `o + u`: the four gates. -/
theorem inputGate_eq (b : Fin 524288) (u : Fin 20) :
    val_main_v9 (F := Ideal) x0 x1 x3 x4 x5 x6 (ix2 b u) = Cell.gate x0 x1 x3 x4 (Cell.biasSum x5 x6) b (Cell.gateRow 0 (by decide) u) := by
  have e : idx_main_v9 (ix2 b u) = ix2 b (Cell.gateRow 0 (by decide) u) := funext fun a => by
    match a with
    | ⟨0, _⟩ => rfl
    | ⟨1, _⟩ => exact Fin.ext (by show (u : Nat) = 0 + (u : Nat); omega)
  rw [val_main_v9_apply, e, gate_eq]

theorem forgetGate_eq (b : Fin 524288) (u : Fin 20) :
    val_main_v10 (F := Ideal) x0 x1 x3 x4 x5 x6 (ix2 b u) = Cell.gate x0 x1 x3 x4 (Cell.biasSum x5 x6) b (Cell.gateRow 20 (by decide) u) := by
  have e : idx_main_v10 (ix2 b u) = ix2 b (Cell.gateRow 20 (by decide) u) := funext fun a => by
    match a with
    | ⟨0, _⟩ => rfl
    | ⟨1, _⟩ => rfl
  rw [val_main_v10_apply, e, gate_eq]

theorem candidate_eq (b : Fin 524288) (u : Fin 20) :
    val_main_v11 (F := Ideal) x0 x1 x3 x4 x5 x6 (ix2 b u) = Cell.gate x0 x1 x3 x4 (Cell.biasSum x5 x6) b (Cell.gateRow 40 (by decide) u) := by
  have e : idx_main_v11 (ix2 b u) = ix2 b (Cell.gateRow 40 (by decide) u) := funext fun a => by
    match a with
    | ⟨0, _⟩ => rfl
    | ⟨1, _⟩ => rfl
  rw [val_main_v11_apply, e, gate_eq]

theorem outputGate_eq (b : Fin 524288) (u : Fin 20) :
    val_main_v12 (F := Ideal) x0 x1 x3 x4 x5 x6 (ix2 b u) = Cell.gate x0 x1 x3 x4 (Cell.biasSum x5 x6) b (Cell.gateRow 60 (by decide) u) := by
  have e : idx_main_v12 (ix2 b u) = ix2 b (Cell.gateRow 60 (by decide) u) := funext fun a => by
    match a with
    | ⟨0, _⟩ => rfl
    | ⟨1, _⟩ => rfl
  rw [val_main_v12_apply, e, gate_eq]

/-- The reference's second result at (b, u) is the next cell state. -/
theorem cellNext_eq (b : Fin 524288) (u : Fin 20) :
    val_main_v28 (F := Ideal) x0 x1 x2 x3 x4 x5 x6 (ix2 b u) = Cell.cellNext x0 x1 x2 x3 x4 (Cell.biasSum x5 x6) b u := by
  rw [val_main_v28_apply, val_main_v19_apply, val_main_v18_apply, val_main_v17_apply, val_main_cst_0_apply,
    val_main_v16_apply, val_main_v15_apply, val_main_cst_apply, val_main_v14_apply, val_main_v13_apply, forgetGate_eq,
    val_main_v27_apply, val_main_v25_apply, val_main_v24_apply, val_main_cst_2_apply, val_main_v23_apply,
    val_main_v22_apply, val_main_cst_1_apply, val_main_v21_apply, val_main_v20_apply, inputGate_eq, val_main_v26_apply,
    candidate_eq, Cell.host_logistic, Cell.host_logistic]
  rfl

/-- The reference's second result is the next cell state, as arrays. -/
theorem cellArr_eq : val_main_v28 (F := Ideal) x0 x1 x2 x3 x4 x5 x6 = Cell.cellArr x0 x1 x2 x3 x4 (Cell.biasSum x5 x6) := by
  funext i
  obtain ⟨b, u, rfl⟩ : ∃ (b : Fin 524288) (u : Fin 20), i = ix2 b u := ⟨i 0, i 1, eq_ix2 i⟩
  exact cellNext_eq x0 x1 x2 x3 x4 x5 x6 b u

/-- The hidden output before the lateral mixing. -/
theorem hidden_eq (b : Fin 524288) (u : Fin 20) :
    val_main_v36 (F := Ideal) x0 x1 x2 x3 x4 x5 x6 (ix2 b u) = Cell.hidden x0 x1 x2 x3 x4 (Cell.biasSum x5 x6) b u := by
  rw [val_main_v36_apply, val_main_v34_apply, val_main_v33_apply, val_main_cst_4_apply, val_main_v32_apply,
    val_main_v31_apply, val_main_cst_3_apply, val_main_v30_apply, val_main_v29_apply, outputGate_eq, val_main_v35_apply,
    cellNext_eq, Cell.host_logistic]
  rfl

/-- The reference's first result is the next hidden state, as arrays. -/
theorem hiddenArr_eq : val_main_v39 (F := Ideal) x0 x1 x2 x3 x4 x5 x6 x7 = Cell.hiddenArr x0 x1 x2 x3 x4 (Cell.biasSum x5 x6) x7 := by
  funext i
  obtain ⟨b, u, rfl⟩ : ∃ (b : Fin 524288) (u : Fin 20), i = ix2 b u := ⟨i 0, i 1, eq_ix2 i⟩
  have el : ∀ k : Fin 20, lidx_main_v38 (ix2 b u) k = ix2 b k := fun k => funext fun a => by
    match a with | ⟨0, _⟩ => rfl | ⟨1, _⟩ => rfl
  have er : ∀ k : Fin 20, idx_main_v37 (ridx_main_v38 (ix2 b u) k) = ix2 u k := fun k => funext fun a => by
    match a with | ⟨0, _⟩ => rfl | ⟨1, _⟩ => rfl
  rw [val_main_v39_apply, val_main_v38_apply]
  simp only [val_main_v37_apply, el, er, hidden_eq]
  show Ideal.tanh (∑ k : Fin 20, Cell.hidden x0 x1 x2 x3 x4 (Cell.biasSum x5 x6) b k * x7 (ix2 u k))
    = Ideal.tanh (∑ v : Fin 20, x7 (ix2 u v) * Cell.hidden x0 x1 x2 x3 x4 (Cell.biasSum x5 x6) b v)
  rw [Finset.sum_congr rfl fun k _ => mul_comm (Cell.hidden x0 x1 x2 x3 x4 (Cell.biasSum x5 x6) b k) (x7 (ix2 u k))]

end Cert.ReferenceIdeal.RefValue

end
-- ==== Proof.LibTransposedDot.lean ====
/-
  A matrix product whose right operand is contracted on its LAST axis, read at an index, over the
  extended reals.

  For the dimension numbers of an M×K by N×K product (contract the second axis of both operands; no
  batch axes) the entry (i, j) of the product is the sum over k of lhs (i, k) · rhs (j, k): a row of
  the left operand against a row of the right one. Stated once for a `tpu.matmul` accumulating into
  the zero splat and once for the host's `dot_general`, for any extents M, K, N. The contraction index
  of such a product has one axis of extent K, and the sum over it is re-indexed by that coordinate.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable {M K N : Nat}

/-- The left operand's row coordinate is the result's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (q : (DotDims.transposedRhs M K N).contr.Idx) :
    ((DotDims.transposedRhs M K N).lhsIdx j q 1).val = (q ⟨0, show 0 < (DotDims.transposedRhs M K N).contr.rank from Nat.one_pos⟩).val :=
  (DotDims.transposedRhs M K N).lhsIdx_val_of_single rfl j q

/-- The right operand's row coordinate is the result's COLUMN coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (q : (DotDims.transposedRhs M K N).contr.Idx) :
    ((DotDims.transposedRhs M K N).rhsIdx j q 1).val = (q ⟨0, show 0 < (DotDims.transposedRhs M K N).contr.rank from Nat.one_pos⟩).val :=
  (DotDims.transposedRhs M K N).rhsIdx_val_of_single rfl j q

/-- The sum over the contraction index is the sum over k of lhs (i, k) · rhs (j, k). -/
theorem sum_contr (lhs : (⟨2, ![M, K]⟩ : Shape).Idx → EReal) (rhs : (⟨2, ![N, K]⟩ : Shape).Idx → EReal)
    (i : Fin M) (j : Fin N) :
    (∑ q : (DotDims.transposedRhs M K N).contr.Idx,
        lhs ((DotDims.transposedRhs M K N).lhsIdx (ix2 i j) q) * rhs ((DotDims.transposedRhs M K N).rhsIdx (ix2 i j) q))
      = ∑ k : Fin K, lhs (ix2 i k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs_row _ _
      | ⟨1, _⟩ => exact (lhs_col _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- A `tpu.matmul` of these dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) :=
  (Ideal.matmul_constant_zero_apply (DotDims.transposedRhs M K N) prec lhs rhs (ix2 i j)).trans (sum_contr lhs rhs i j)

/-- The host's `dot_general` of these dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (i : Fin M) (j : Fin N) :
    FloatOps.dotGeneral (DotDims.transposedRhs M K N) prec sched lhs rhs (ix2 i j)
      = ∑ k : Fin K, lhs (ix2 i k) * rhs (ix2 j k) :=
  (Ideal.dotGeneral_apply (DotDims.transposedRhs M K N) prec sched lhs rhs (ix2 i j)).trans (sum_contr lhs rhs i j)

end Idealize.ShloMosaic.TransposedDot

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.BlockCell.lean ====
/-
  What the kernel's body computes from one block of 4096 rows: the cell of those rows.

  The body works transposed, units down the sublanes and the 4096 rows along the lanes. Its 80×4096 array of gate
  pre-activations is, at (j, r), Σ_k W_ih (j, k) · x (r, k) + Σ_k W_hh (j, k) · h (r, k) + bias (j, 0): two products
  that contract the last axis of both operands (a row of the weights against a row of the block), into a zero
  accumulator, and the bias column broadcast along the lanes; the narrowing of the operands to bf16 is the identity on
  the extended reals. That is `Cell.gate` of the block at row r. The four 20-row slices of it are the four gates,
  the block of c enters transposed, and what is stored is transposed back: so the second output block is, at (r, u),
  the next cell state of row r of the block. The first output block is tanh of W_lat times the 20×4096 hidden output,
  a plain product, transposed back: the next hidden state of row r.
-/
import proofs.«162781_j66915590472098_2_alg».proof.Proof.Gen.KernelIdeal.Frame
import proofs.«162781_j66915590472098_2_alg».proof.Proof.Cell
import proofs.«162781_j66915590472098_2_alg».proof.Proof.LibTransposedDot
import proofs.«162781_j66915590472098_2_alg».proof.Proof.LibPlainDot
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-! ## The body's operations read at an index, for any operands -/

/-- A product of the weights with a block, each row of the weights against each row of the block, at (j, r). -/
theorem rowsProduct_apply (W : FVec Ideal S80x20 .f32) (Z : FVec Ideal S4096x20 .f32) (j : Fin 80) (r : Fin 4096) :
    matmul (F := Ideal) dot_S80x20_S4096x20_S80x4096_1_1_0_0_n_n none (truncf (F := Ideal) .bf16 W bitsLt_bf16_f32)
      (truncf (F := Ideal) .bf16 Z bitsLt_bf16_f32) (constant (F := Ideal) S80x4096 .f32 0x00000000#32) (ix2 j r)
        = ∑ k : Fin 20, W (ix2 j k) * Z (ix2 r k) :=
  TransposedDot.matmul_zero_apply (M := 80) (K := 20) (N := 4096) none (truncf (F := Ideal) .bf16 W bitsLt_bf16_f32)
    (truncf (F := Ideal) .bf16 Z bitsLt_bf16_f32) j r

/-- The lateral weights times a 20×4096 array, at (u, r): a plain product. -/
theorem lateral_apply (W : FVec Ideal S20x20 .f32) (Z : FVec Ideal S20x4096 .f32) (u : Fin 20) (r : Fin 4096) :
    matmul (F := Ideal) dot_S20x20_S20x4096_S20x4096_1_0_0_1_n_n none (truncf (F := Ideal) .bf16 W bitsLt_bf16_f32)
      (truncf (F := Ideal) .bf16 Z bitsLt_bf16_f32) (constant (F := Ideal) S20x4096 .f32 0x00000000#32) (ix2 u r)
        = ∑ v : Fin 20, W (ix2 u v) * Z (ix2 v r) :=
  PlainDot.matmul_zero_apply (M := 20) (K := 20) (N := 4096) none (truncf (F := Ideal) .bf16 W bitsLt_bf16_f32)
    (truncf (F := Ideal) .bf16 Z bitsLt_bf16_f32) u r

/-- A column broadcast along the lanes, at (j, r), is its entry for row `j`. -/
theorem columnLanes_apply (Y : FVec Ideal S80x1 .f32) (j : Fin 80) (r : Fin 4096) :
    broadcastTo S80x4096 (shapeCast S80x1 Y shapeCasts_S80x1_S80x1) broadcasts_S80x1_S80x4096 (ix2 j r) = Y (ix2 j 0) := by
  rw [shapeCast_self]
  exact broadcastTo_apply Y broadcasts_S80x1_S80x4096 (ix2 j r) (ix2 j 0) (fun a => by
    match a with
    | ⟨0, _⟩ => show j.val = if (80 : Nat) = 1 then 0 else j.val; rw [if_neg (by decide)]
    | ⟨1, _⟩ => show 0 = if (1 : Nat) = 1 then 0 else r.val; rw [if_pos rfl])

/-- The slice of 20 rows starting at row `o` of an 80×4096 array, at (u, r), is the array at (o + u, r). -/
theorem slice_apply (o : Nat) (ho : o + 20 ≤ 80) (hs : S80x4096.Slices ![o, 0] S20x4096) (Y : FVec Ideal S80x4096 .f32)
    (u : Fin 20) (r : Fin 4096) :
    extractStridedSlice S20x4096 ![o, 0] Y hs (ix2 u r) = Y (ix2 (Cell.gateRow o ho u) r) :=
  extractStridedSlice_apply ![o, 0] Y hs (ix2 u r) (ix2 (Cell.gateRow o ho u) r) (fun a => by
    match a with
    | ⟨0, _⟩ => rfl
    | ⟨1, _⟩ => show r.val = 0 + r.val; omega)

/-- A block turned with its rows along the lanes, at (u, r), is the block at (r, u). -/
theorem rowsToLanes_apply (Y : FVec Ideal S4096x20 .f32) (u : Fin 20) (r : Fin 4096) :
    transpose S20x4096 [1, 0] Y transposes_S4096x20_p1_0_S20x4096 (ix2 u r) = Y (ix2 r u) :=
  transpose_apply [1, 0] Y transposes_S4096x20_p1_0_S20x4096 (ix2 u r) (ix2 r u) (fun b => by
    match b with
    | ⟨0, _⟩ => rfl
    | ⟨1, _⟩ => rfl)

/-- And turned back, at (r, u), it is the array at (u, r). -/
theorem lanesToRows_apply (Y : FVec Ideal S20x4096 .f32) (r : Fin 4096) (u : Fin 20) :
    transpose S4096x20 [1, 0] Y transposes_S20x4096_p1_0_S4096x20 (ix2 r u) = Y (ix2 u r) :=
  transpose_apply [1, 0] Y transposes_S20x4096_p1_0_S4096x20 (ix2 r u) (ix2 u r) (fun b => by
    match b with
    | ⟨0, _⟩ => rfl
    | ⟨1, _⟩ => rfl)

/-! ## The body's values -/

/-- The bias operand is a column: its entry for gate row `j`. -/
def biasCol (P4 : FVec Ideal S80x1 .f32) : Fin 80 → EReal := fun j => P4 (ix2 j 0)

variable (P0 P1 P5 : FVec Ideal S4096x20 .f32) (P2 P3 : FVec Ideal S80x20 .f32) (P4 : FVec Ideal S80x1 .f32)
  (P6 : FVec Ideal S20x20 .f32)

/-- The transposed array of gate pre-activations at (j, r) is gate `j` of row `r` of the block. -/
theorem gates_apply (j : Fin 80) (r : Fin 4096) :
    k0_pay1 (F := Ideal) P0 P1 P2 P3 P4 (ix2 j r) = Cell.gate P0 P1 P2 P3 (biasCol P4) r j :=
  congrArg₂ (· + ·) (congrArg₂ (· + ·) (rowsProduct_apply P2 P0 j r) (rowsProduct_apply P3 P1 j r)) (columnLanes_apply P4 j r)

/-- The slice of 20 rows starting at row `o`, at (u, r), is gate row `o + u` of row `r`. -/
theorem gateSlice_apply (o : Nat) (ho : o + 20 ≤ 80) (hs : S80x4096.Slices ![o, 0] S20x4096) (u : Fin 20) (r : Fin 4096) :
    extractStridedSlice S20x4096 ![o, 0] (k0_pay1 (F := Ideal) P0 P1 P2 P3 P4) hs (ix2 u r)
      = Cell.gate P0 P1 P2 P3 (biasCol P4) r (Cell.gateRow o ho u) :=
  (slice_apply o ho hs (k0_pay1 (F := Ideal) P0 P1 P2 P3 P4) u r).trans (gates_apply P0 P1 P2 P3 P4 (Cell.gateRow o ho u) r)

/-- The transposed next cell state at (u, r) is the next cell state of unit `u` of row `r` of the block. -/
theorem cell_apply (u : Fin 20) (r : Fin 4096) :
    k0_pay2 (F := Ideal) P0 P1 P2 P3 P4 P5 (ix2 u r) = Cell.cellNext P0 P1 P5 P2 P3 (biasCol P4) r u :=
  congrArg₂ (· + ·)
    (congrArg₂ (· * ·)
      (congrArg Ideal.logistic (gateSlice_apply P0 P1 P2 P3 P4 20 (by decide) slices_S80x4096_o20_0_S20x4096 u r))
      (rowsToLanes_apply P5 u r))
    (congrArg₂ (· * ·)
      (congrArg Ideal.logistic (gateSlice_apply P0 P1 P2 P3 P4 0 (by decide) slices_S80x4096_o0_0_S20x4096 u r))
      (congrArg Ideal.tanh (gateSlice_apply P0 P1 P2 P3 P4 40 (by decide) slices_S80x4096_o40_0_S20x4096 u r)))

/-- The transposed hidden output, before the lateral mixing. -/
abbrev hiddenLanes : FVec Ideal S20x4096 .f32 :=
  mulf (F := Ideal) (logistic (F := Ideal) (extractStridedSlice S20x4096 ![60, 0] (k0_pay1 (F := Ideal) P0 P1 P2 P3 P4) slices_S80x4096_o60_0_S20x4096))
    (tanh (F := Ideal) (k0_pay2 (F := Ideal) P0 P1 P2 P3 P4 P5))

/-- At (v, r) it is the hidden output of unit `v` of row `r` of the block. -/
theorem hiddenLanes_apply (v : Fin 20) (r : Fin 4096) :
    hiddenLanes P0 P1 P5 P2 P3 P4 (ix2 v r) = Cell.hidden P0 P1 P5 P2 P3 (biasCol P4) r v :=
  congrArg₂ (· * ·)
    (congrArg Ideal.logistic (gateSlice_apply P0 P1 P2 P3 P4 60 (by decide) slices_S80x4096_o60_0_S20x4096 v r))
    (congrArg Ideal.tanh (cell_apply P0 P1 P5 P2 P3 P4 v r))

/-- The first stored block at (r, u) is the next hidden state of unit `u` of row `r` of the block. -/
theorem hiddenNext_apply (r : Fin 4096) (u : Fin 20) :
    k0_pay3 (F := Ideal) P0 P1 P2 P3 P4 P5 P6 (ix2 r u) = Cell.hiddenNext P0 P1 P5 P2 P3 (biasCol P4) P6 r u := by
  have hm := lateral_apply P6 (hiddenLanes P0 P1 P5 P2 P3 P4) u r
  rw [Finset.sum_congr rfl fun v _ => congrArg (P6 (ix2 u v) * ·) (hiddenLanes_apply P0 P1 P5 P2 P3 P4 v r)] at hm
  exact (lanesToRows_apply (tanh (F := Ideal) (matmul (F := Ideal) dot_S20x20_S20x4096_S20x4096_1_0_0_1_n_n none
    (truncf (F := Ideal) .bf16 P6 bitsLt_bf16_f32) (truncf (F := Ideal) .bf16 (hiddenLanes P0 P1 P5 P2 P3 P4) bitsLt_bf16_f32)
    (constant (F := Ideal) S20x4096 .f32 0x00000000#32))) r u).trans (congrArg Ideal.tanh hm)

/-- The second stored block at (r, u) is the next cell state of unit `u` of row `r` of the block. -/
theorem cellStored_apply (r : Fin 4096) (u : Fin 20) :
    k0_pay4 (F := Ideal) P0 P1 P2 P3 P4 P5 (ix2 r u) = Cell.cellNext P0 P1 P5 P2 P3 (biasCol P4) r u :=
  (lanesToRows_apply (k0_pay2 (F := Ideal) P0 P1 P2 P3 P4 P5) r u).trans (cell_apply P0 P1 P5 P2 P3 P4 u r)

/-! ## The two output buffers after the body -/

/-- The zero offsets of the body's whole-buffer accesses. -/
theorem zeroOffsets : (![0, 0] : Fin 2 → Nat) = fun _ => 0 := funext fun a => by fin_cases a <;> rfl

variable (x0 x1 x2 : FVec Ideal S4096x20 .f32) (x3 x4 : FVec Ideal S80x20 .f32) (x5 : FVec Ideal S80x1 .f32)
  (x6 : FVec Ideal S20x20 .f32)

/-- The first output's buffer after the body holds the next hidden states of the block's rows. -/
theorem hiddenOut_eq : out0_7 (F := Ideal) x0 x1 x2 x3 x4 x5 x6 = Cell.hiddenArr x0 x1 x2 x3 x4 (biasCol x5) x6 := by
  unfold out0_7
  rw [View.canon_unit_zero zeroOffsets]
  simp only [View.ld_unit_zero (S := S4096x20) zeroOffsets, View.ld_unit_zero (S := S80x20) zeroOffsets,
    View.ld_unit_zero (S := S80x1) zeroOffsets, View.ld_unit_zero (S := S20x20) zeroOffsets]
  funext y
  obtain ⟨r, u, rfl⟩ : ∃ (r : Fin 4096) (u : Fin 20), y = ix2 r u := ⟨y 0, y 1, eq_ix2 y⟩
  exact hiddenNext_apply x0 x1 x2 x3 x4 x5 x6 r u

/-- The second output's buffer after the body holds the next cell states of the block's rows. -/
theorem cellOut_eq : out0_8 (F := Ideal) x0 x1 x2 x3 x4 x5 x6 = Cell.cellArr x0 x1 x2 x3 x4 (biasCol x5) := by
  unfold out0_8
  rw [View.canon_unit_zero zeroOffsets]
  simp only [View.ld_unit_zero (S := S4096x20) zeroOffsets, View.ld_unit_zero (S := S80x20) zeroOffsets,
    View.ld_unit_zero (S := S80x1) zeroOffsets]
  funext y
  obtain ⟨r, u, rfl⟩ : ∃ (r : Fin 4096) (u : Fin 20), y = ix2 r u := ⟨y 0, y 1, eq_ix2 y⟩
  exact cellStored_apply x0 x1 x2 x3 x4 x5 r u

end Cert.KernelIdeal.Body

end
-- ==== Proof.KernelArray.lean ====
/-
  From blocks to arrays: what the kernel's two result arrays hold after the run.

  The grid has 128 points; at point t the windows of x, h and c and of both results are rows 4096·t to
  4096·t + 4095 of their arrays (block index (t, 0) of blocks of 4096×20), and the windows of W_ih, W_hh, the bias
  column and W_lat are their whole arrays (block index (0, 0)). The bias column the region finds is the host's
  reshape of b_ih + b_hh, so its entry for gate row j is b_ih j + b_hh j. Every row of the cell depends on that row
  of x, h and c alone, so what point t writes back — the cell of its 4096 rows (the body's two stored blocks) — is
  block t of the cell of the whole batch; the 128 blocks cover the 524288 rows (row i lies in block i / 4096), so
  each result array ends holding the whole batch's next hidden state, respectively next cell state.
-/
import proofs.«162781_j66915590472098_2_alg».proof.Proof.Gen.KernelIdeal.Value
import proofs.«162781_j66915590472098_2_alg».proof.Proof.BlockCell
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The results, as functions of the argument arrays -/

/-- The next hidden state of the whole batch, from the argument arrays as launched on core `c`. -/
abbrev hiddenOf (c : Dev nD) : S524288x20.Idx → EReal :=
  Cell.hiddenArr (m ((c : Thread nD τ).loc main_arg0)) (m ((c : Thread nD τ).loc main_arg1)) (m ((c : Thread nD τ).loc main_arg2))
    (m ((c : Thread nD τ).loc main_arg3)) (m ((c : Thread nD τ).loc main_arg4))
    (Cell.biasSum (m ((c : Thread nD τ).loc main_arg5)) (m ((c : Thread nD τ).loc main_arg6))) (m ((c : Thread nD τ).loc main_arg7))

/-- The next cell state of the whole batch. -/
abbrev cellOf (c : Dev nD) : S524288x20.Idx → EReal :=
  Cell.cellArr (m ((c : Thread nD τ).loc main_arg0)) (m ((c : Thread nD τ).loc main_arg1)) (m ((c : Thread nD τ).loc main_arg2))
    (m ((c : Thread nD τ).loc main_arg3)) (m ((c : Thread nD τ).loc main_arg4))
    (Cell.biasSum (m ((c : Thread nD τ).loc main_arg5)) (m ((c : Thread nD τ).loc main_arg6)))

/-! ## The index maps, decided over the 128 points -/

theorem rowsIndex0 : ∀ t : Fin cfg0.N, win0_0.index t (0 : Fin 2) = t.val ∧ win0_0.index t (1 : Fin 2) = 0 :=
  (by decide +kernel : ∀ t : Fin grid0.N, _)
theorem rowsIndex1 : ∀ t : Fin cfg0.N, win0_1.index t (0 : Fin 2) = t.val ∧ win0_1.index t (1 : Fin 2) = 0 :=
  (by decide +kernel : ∀ t : Fin grid0.N, _)
theorem rowsIndex2 : ∀ t : Fin cfg0.N, win0_2.index t (0 : Fin 2) = t.val ∧ win0_2.index t (1 : Fin 2) = 0 :=
  (by decide +kernel : ∀ t : Fin grid0.N, _)
theorem wholeIndex3 : ∀ t : Fin cfg0.N, win0_3.index t (0 : Fin 2) = 0 ∧ win0_3.index t (1 : Fin 2) = 0 :=
  (by decide +kernel : ∀ t : Fin grid0.N, _)
theorem wholeIndex4 : ∀ t : Fin cfg0.N, win0_4.index t (0 : Fin 2) = 0 ∧ win0_4.index t (1 : Fin 2) = 0 :=
  (by decide +kernel : ∀ t : Fin grid0.N, _)
theorem wholeIndex5 : ∀ t : Fin cfg0.N, win0_5.index t (0 : Fin 2) = 0 ∧ win0_5.index t (1 : Fin 2) = 0 :=
  (by decide +kernel : ∀ t : Fin grid0.N, _)
theorem wholeIndex6 : ∀ t : Fin cfg0.N, win0_6.index t (0 : Fin 2) = 0 ∧ win0_6.index t (1 : Fin 2) = 0 :=
  (by decide +kernel : ∀ t : Fin grid0.N, _)
theorem rowsIndex7 : ∀ t : Fin cfg0.N, win0_7.index t (0 : Fin 2) = t.val ∧ win0_7.index t (1 : Fin 2) = 0 :=
  (by decide +kernel : ∀ t : Fin grid0.N, _)
theorem rowsIndex8 : ∀ t : Fin cfg0.N, win0_8.index t (0 : Fin 2) = t.val ∧ win0_8.index t (1 : Fin 2) = 0 :=
  (by decide +kernel : ∀ t : Fin grid0.N, _)

theorem point_lt (t : Fin cfg0.N) : t.val < 128 := Nat.lt_of_lt_of_eq t.isLt N_0

/-- Row `r` of block `t` is row `4096·t + r` of the batch. -/
def blockRow (t : Fin cfg0.N) (r : Fin 4096) : Fin 524288 :=
  ⟨t.val * 4096 + r.val, by have := point_lt t; have := r.isLt; omega⟩

/-! ## The windows' blocks at a point -/

/-- The block of x at point `t`: its row `r` is row `4096·t + r` of x. -/
theorem xBlock_apply (c : Dev nD) (t : Fin cfg0.N) (r : Fin 4096) (k : Fin 20) :
    iblk m c 0 t (ix2 r k) = m ((c : Thread nD τ).loc main_arg0) (ix2 (blockRow t r) k) := by
  obtain ⟨e0, e1⟩ := rowsIndex0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 4096 + 1 * r.val = t.val * 4096 + r.val; omega
  | ⟨1, _⟩ => show win0_0.index t (1 : Fin 2) * 20 + 1 * k.val = k.val; omega

/-- The block of h at point `t`. -/
theorem hBlock_apply (c : Dev nD) (t : Fin cfg0.N) (r : Fin 4096) (k : Fin 20) :
    iblk m c 1 t (ix2 r k) = m ((c : Thread nD τ).loc main_arg1) (ix2 (blockRow t r) k) := by
  obtain ⟨e0, e1⟩ := rowsIndex1 t
  show V m c main_arg1 (((cfg0.win 1).blk t).view.emb (ix2 r k)) = _
  rw [V_main_arg1]
  refine congrArg _ (funext fun a => Fin.ext ?_)
  match a with
  | ⟨0, _⟩ => show win0_1.index t (0 : Fin 2) * 4096 + 1 * r.val = t.val * 4096 + r.val; omega
  | ⟨1, _⟩ => show win0_1.index t (1 : Fin 2) * 20 + 1 * k.val = k.val; omega

/-- The block of c at point `t`. -/
theorem cBlock_apply (c : Dev nD) (t : Fin cfg0.N) (r : Fin 4096) (k : Fin 20) :
    iblk m c 2 t (ix2 r k) = m ((c : Thread nD τ).loc main_arg2) (ix2 (blockRow t r) k) := by
  obtain ⟨e0, e1⟩ := rowsIndex2 t
  show V m c main_arg2 (((cfg0.win 2).blk t).view.emb (ix2 r k)) = _
  rw [V_main_arg2]
  refine congrArg _ (funext fun a => Fin.ext ?_)
  match a with
  | ⟨0, _⟩ => show win0_2.index t (0 : Fin 2) * 4096 + 1 * r.val = t.val * 4096 + r.val; omega
  | ⟨1, _⟩ => show win0_2.index t (1 : Fin 2) * 20 + 1 * k.val = k.val; omega

/-- The block of W_ih at every point is W_ih. -/
theorem wihBlock_eq (c : Dev nD) (t : Fin cfg0.N) :
    (iblk m c 3 t : S80x20.Idx → EReal) = m ((c : Thread nD τ).loc main_arg3) := by
  obtain ⟨e0, e1⟩ := wholeIndex3 t
  funext y
  show V m c main_arg3 (((cfg0.win 3).blk t).view.emb y) = _
  rw [V_main_arg3]
  refine congrArg _ (funext fun a => Fin.ext ?_)
  match a with
  | ⟨0, _⟩ => show win0_3.index t (0 : Fin 2) * 80 + 1 * (y 0).val = (y 0).val; omega
  | ⟨1, _⟩ => show win0_3.index t (1 : Fin 2) * 20 + 1 * (y 1).val = (y 1).val; omega

/-- The block of W_hh at every point is W_hh. -/
theorem whhBlock_eq (c : Dev nD) (t : Fin cfg0.N) :
    (iblk m c 4 t : S80x20.Idx → EReal) = m ((c : Thread nD τ).loc main_arg4) := by
  obtain ⟨e0, e1⟩ := wholeIndex4 t
  funext y
  show V m c main_arg4 (((cfg0.win 4).blk t).view.emb y) = _
  rw [V_main_arg4]
  refine congrArg _ (funext fun a => Fin.ext ?_)
  match a with
  | ⟨0, _⟩ => show win0_4.index t (0 : Fin 2) * 80 + 1 * (y 0).val = (y 0).val; omega
  | ⟨1, _⟩ => show win0_4.index t (1 : Fin 2) * 20 + 1 * (y 1).val = (y 1).val; omega

/-- The block of W_lat at every point is W_lat. -/
theorem wlatBlock_eq (c : Dev nD) (t : Fin cfg0.N) :
    (iblk m c 6 t : S20x20.Idx → EReal) = m ((c : Thread nD τ).loc main_arg7) := by
  obtain ⟨e0, e1⟩ := wholeIndex6 t
  funext y
  show V m c main_arg7 (((cfg0.win 6).blk t).view.emb y) = _
  rw [V_main_arg7]
  refine congrArg _ (funext fun a => Fin.ext ?_)
  match a with
  | ⟨0, _⟩ => show win0_6.index t (0 : Fin 2) * 20 + 1 * (y 0).val = (y 0).val; omega
  | ⟨1, _⟩ => show win0_6.index t (1 : Fin 2) * 20 + 1 * (y 1).val = (y 1).val; omega

/-- The bias column the region finds: the host's reshape of b_ih + b_hh. -/
theorem biasColumn_entry (c : Dev nD) :
    (V m c main_v1 : S80x1.Idx → EReal)
      = shapeCast S80x1 (addf (F := Ideal) (s := S80) (φ := .f32) (m ((c : Thread nD τ).loc main_arg5)) (m ((c : Thread nD τ).loc main_arg6))) shapeCasts_S80_S80x1 := by
  dsimp only [V, hostOps0]
  after_results
  rfl

/-- So the bias column's block at every point has, for gate row `j`, the entry b_ih j + b_hh j. -/
theorem biasBlock_eq (c : Dev nD) (t : Fin cfg0.N) :
    Body.biasCol (iblk m c 5 t)
      = Cell.biasSum (m ((c : Thread nD τ).loc main_arg5)) (m ((c : Thread nD τ).loc main_arg6)) := by
  obtain ⟨e0, e1⟩ := wholeIndex5 t
  funext j
  have he : ((cfg0.win 5).blk t).view.emb (ix2 j (0 : Fin 1)) = ix2 j (0 : Fin 1) := funext fun a => Fin.ext (by
    match a with
    | ⟨0, _⟩ => show win0_5.index t (0 : Fin 2) * 80 + 1 * j.val = j.val; omega
    | ⟨1, _⟩ => show win0_5.index t (1 : Fin 2) * 1 + 1 * 0 = 0; omega)
  show V m c main_v1 (((cfg0.win 5).blk t).view.emb (ix2 j (0 : Fin 1))) = _
  rw [he, biasColumn_entry]
  refine (shapeCast_apply _ shapeCasts_S80_S80x1 (ix2 j (0 : Fin 1)) (ix1 j) ?_).trans rfl
  rw [Shape.rowMajor_val_one, Shape.rowMajor_val_two]
  show j.val = j.val * 1 + 0
  omega

/-! ## What a point writes back is its block of the whole batch's results -/

/-- The element of a result block at (r, u) sits at row `4096·t + r`, column `u` of the result array. -/
theorem hiddenBlock_emb (t : Fin cfg0.N) (r : Fin 4096) (u : Fin 20) :
    ((cfg0.win 7).blk t).view.emb (ix2 r u) = ix2 (blockRow t r) u := by
  obtain ⟨e0, e1⟩ := rowsIndex7 t
  refine funext fun a => Fin.ext ?_
  match a with
  | ⟨0, _⟩ => show win0_7.index t (0 : Fin 2) * 4096 + 1 * r.val = t.val * 4096 + r.val; omega
  | ⟨1, _⟩ => show win0_7.index t (1 : Fin 2) * 20 + 1 * u.val = u.val; omega

theorem cellBlock_emb (t : Fin cfg0.N) (r : Fin 4096) (u : Fin 20) :
    ((cfg0.win 8).blk t).view.emb (ix2 r u) = ix2 (blockRow t r) u := by
  obtain ⟨e0, e1⟩ := rowsIndex8 t
  refine funext fun a => Fin.ext ?_
  match a with
  | ⟨0, _⟩ => show win0_8.index t (0 : Fin 2) * 4096 + 1 * r.val = t.val * 4096 + r.val; omega
  | ⟨1, _⟩ => show win0_8.index t (1 : Fin 2) * 20 + 1 * u.val = u.val; omega

/-- What point `t` writes back to the first result is block `t` of the batch's next hidden state. -/
theorem hiddenFlushed_eq (c : Dev nD) (t : Fin cfg0.N) :
    (dats m 0 c).flushed 7 t = ((cfg0.win 7).blk t).view.read (Elt Ideal) (hiddenOf m c) := by
  rw [Value.flushed7, Body.hiddenOut_eq (iblk m c 0 t) (iblk m c 1 t) (iblk m c 2 t) (iblk m c 3 t) (iblk m c 4 t)
    (iblk m c 5 t) (iblk m c 6 t)]
  funext y
  obtain ⟨r, u, rfl⟩ : ∃ (r : Fin 4096) (u : Fin 20), y = ix2 r u := ⟨y 0, y 1, eq_ix2 y⟩
  show Cell.hiddenNext (iblk m c 0 t) (iblk m c 1 t) (iblk m c 2 t) (iblk m c 3 t) (iblk m c 4 t) (Body.biasCol (iblk m c 5 t))
      (iblk m c 6 t) r u = hiddenOf m c (((cfg0.win 7).blk t).view.emb (ix2 r u))
  rw [hiddenBlock_emb t r u]
  exact Cell.hiddenNext_congr (iblk m c 0 t) (iblk m c 1 t) (iblk m c 2 t) _ _ _ (iblk m c 3 t) _ (iblk m c 4 t) _
    (Body.biasCol (iblk m c 5 t)) _ (iblk m c 6 t) _ r (blockRow t r)
    (xBlock_apply m c t r) (hBlock_apply m c t r) (cBlock_apply m c t r)
    (wihBlock_eq m c t) (whhBlock_eq m c t) (biasBlock_eq m c t) (wlatBlock_eq m c t) u

/-- What point `t` writes back to the second result is block `t` of the batch's next cell state. -/
theorem cellFlushed_eq (c : Dev nD) (t : Fin cfg0.N) :
    (dats m 0 c).flushed 8 t = ((cfg0.win 8).blk t).view.read (Elt Ideal) (cellOf m c) := by
  rw [Value.flushed8, Body.cellOut_eq (iblk m c 0 t) (iblk m c 1 t) (iblk m c 2 t) (iblk m c 3 t) (iblk m c 4 t)
    (iblk m c 5 t) (iblk m c 6 t)]
  funext y
  obtain ⟨r, u, rfl⟩ : ∃ (r : Fin 4096) (u : Fin 20), y = ix2 r u := ⟨y 0, y 1, eq_ix2 y⟩
  show Cell.cellNext (iblk m c 0 t) (iblk m c 1 t) (iblk m c 2 t) (iblk m c 3 t) (iblk m c 4 t) (Body.biasCol (iblk m c 5 t))
      r u = cellOf m c (((cfg0.win 8).blk t).view.emb (ix2 r u))
  rw [cellBlock_emb t r u]
  exact Cell.cellNext_congr (iblk m c 0 t) (iblk m c 1 t) (iblk m c 2 t) _ _ _ (iblk m c 3 t) _ (iblk m c 4 t) _
    (Body.biasCol (iblk m c 5 t)) _ r (blockRow t r)
    (xBlock_apply m c t r) (hBlock_apply m c t r) (cBlock_apply m c t r)
    (wihBlock_eq m c t) (whhBlock_eq m c t) (biasBlock_eq m c t) u

/-! ## The blocks cover the arrays -/

/-- An index of the first result is in point `t`'s block iff each coordinate is in the block's range. -/
theorem mem_hiddenBlock (t : Fin cfg0.N) (i : S524288x20.Idx) :
    i ∈ ((cfg0.win 7).blk t).view.set ↔ ∀ a : Fin 2, win0_7.index t a * S4096x20.size a ≤ (i a).val ∧ (i a).val < win0_7.index t a * S4096x20.size a + S4096x20.size a := by
  show i ∈ ((View.whole main_v2_0).slice (win0_7.rect t)).set ↔ _
  rw [View.set_slice_whole, Rect.mem_set_unit]
  exact Iff.rfl

theorem mem_cellBlock (t : Fin cfg0.N) (i : S524288x20.Idx) :
    i ∈ ((cfg0.win 8).blk t).view.set ↔ ∀ a : Fin 2, win0_8.index t a * S4096x20.size a ≤ (i a).val ∧ (i a).val < win0_8.index t a * S4096x20.size a + S4096x20.size a := by
  show i ∈ ((View.whole main_v2_1).slice (win0_8.rect t)).set ↔ _
  rw [View.set_slice_whole, Rect.mem_set_unit]
  exact Iff.rfl

/-- The point whose block holds row `i`: `i / 4096`. -/
def pointOf (i : S524288x20.Idx) : Fin cfg0.N :=
  ⟨(i 0).val / 4096, by have h : (i 0).val < 524288 := (i 0).isLt; rw [show cfg0.N = 128 from N_0]; omega⟩

theorem pointOf_val (i : S524288x20.Idx) : (pointOf i).val = (i 0).val / 4096 := rfl

/-- Every index of the first result lies in some point's block. -/
theorem hidden_cover (i : S524288x20.Idx) :
    ∃ t : Fin cfg0.N, (cfg0.win 7).flush t = true ∧ i ∈ ((cfg0.win 7).blk t).view.set := by
  have hi0 : (i 0).val < 524288 := (i 0).isLt
  have hi1 : (i 1).val < 20 := (i 1).isLt
  obtain ⟨e0, e1⟩ := rowsIndex7 (pointOf i)
  have hp := pointOf_val i
  refine ⟨pointOf i, flush0_7 (pointOf i), ?_⟩
  rw [mem_hiddenBlock]
  intro a
  match a with
  | ⟨0, _⟩ => show win0_7.index (pointOf i) (0 : Fin 2) * 4096 ≤ (i 0).val ∧ (i 0).val < win0_7.index (pointOf i) (0 : Fin 2) * 4096 + 4096; omega
  | ⟨1, _⟩ => show win0_7.index (pointOf i) (1 : Fin 2) * 20 ≤ (i 1).val ∧ (i 1).val < win0_7.index (pointOf i) (1 : Fin 2) * 20 + 20; omega

/-- Every index of the second result lies in some point's block. -/
theorem cell_cover (i : S524288x20.Idx) :
    ∃ t : Fin cfg0.N, (cfg0.win 8).flush t = true ∧ i ∈ ((cfg0.win 8).blk t).view.set := by
  have hi0 : (i 0).val < 524288 := (i 0).isLt
  have hi1 : (i 1).val < 20 := (i 1).isLt
  obtain ⟨e0, e1⟩ := rowsIndex8 (pointOf i)
  have hp := pointOf_val i
  refine ⟨pointOf i, flush0_8 (pointOf i), ?_⟩
  rw [mem_cellBlock]
  intro a
  match a with
  | ⟨0, _⟩ => show win0_8.index (pointOf i) (0 : Fin 2) * 4096 ≤ (i 0).val ∧ (i 0).val < win0_8.index (pointOf i) (0 : Fin 2) * 4096 + 4096; omega
  | ⟨1, _⟩ => show win0_8.index (pointOf i) (1 : Fin 2) * 20 ≤ (i 1).val ∧ (i 1).val < win0_8.index (pointOf i) (1 : Fin 2) * 20 + 20; omega

/-! ## The arrays after the run, and the run -/

/-- The first result array after the run is the batch's next hidden state. -/
theorem hidden_final (c : Dev nD) : (dats m 0 c).arrAt 7 cfg0.N = hiddenOf m c :=
  (dats m 0 c).arrAt_eq_of_cover 7 (hiddenOf m c) (fun t _ => hiddenFlushed_eq m c t) hidden_cover

/-- The second result array after the run is the batch's next cell state. -/
theorem cell_final (c : Dev nD) : (dats m 0 c).arrAt 8 cfg0.N = cellOf m c :=
  (dats m 0 c).arrAt_eq_of_cover 8 (cellOf m c) (fun t _ => cellFlushed_eq m c t) cell_cover

/-- The kernel's run: every weakly fair execution terminates, faultless, with the two results at the batch's next
    hidden and cell states and the arguments unchanged. -/
theorem run : θ_run defs (onTc (τ := τ) (main (F := Ideal))) ⟨m, fun _ => 0, ρ⟩ fun r => ∀ c : Dev nD,
      r.2.mem ((c : Thread nD τ).loc main_v2_0) = hiddenOf m c
      ∧ r.2.mem ((c : Thread nD τ).loc main_v2_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (hidden_final m c), (h c).2.1.trans (cell_final m c), (h c).2.2⟩)
    (Value.run_blocks m ρ)

end Cert.KernelIdeal.Whole

end
-- ==== Proof.lean ====
/-
  An LSTM cell with a lateral mixing of its hidden units, tiled over the batch, against the same cell written
  with whole-array operations: the two compute the same extended reals, entry by entry.

  Both programs take x, h, c (524288 rows of 20 units), W_ih and W_hh (80×20), b_ih and b_hh (80) and W_lat (20×20),
  and return the next hidden state h' and the next cell state c' (Proof/Cell.lean states them):
      gate b j = Σ_k W_ih (j, k) · x (b, k) + Σ_k W_hh (j, k) · h (b, k) + (b_ih j + b_hh j),
      c' (b, u) = σ (gate b (20 + u)) · c (b, u) + σ (gate b u) · tanh (gate b (40 + u)),
      h' (b, u) = tanh (Σ_v W_lat (u, v) · σ (gate b (60 + u → v)) · tanh (c' (b, v))),
  σ the logistic function. The kernel computes a block of 4096 rows per grid point, transposed (the rows along the
  lanes), with its three products taken on operands narrowed to bf16 — the identity on the extended reals — and its
  logistic function one operation; the reference works on the whole arrays, row-major, and spells the logistic
  function 1 / (1 + exp (-g)). What joins the two sides: multiplication of extended reals commutes (each side puts the
  weights on the other side of every product), the spelt-out logistic function is the logistic function on every
  extended real, and a row of the cell depends on that row of x, h and c alone, so the 128 blocks of 4096 rows are
  the blocks of the whole batch's result. No step uses that the inputs are finite.

  The frames are the generated ones (the reference's is its generated run with the results dropped); the idealized
  kernel is the kernel's own text read over the extended reals, so there is nothing to preserve.
-/
import proofs.«162781_j66915590472098_2_alg».proof.Defs
import proofs.«162781_j66915590472098_2_alg».proof.Proof.Gen.Kernel
import proofs.«162781_j66915590472098_2_alg».proof.Proof.Gen.Kernel.Skeleton
import proofs.«162781_j66915590472098_2_alg».proof.Proof.Gen.Kernel.Launch
import proofs.«162781_j66915590472098_2_alg».proof.Proof.Gen.Kernel.Points
import proofs.«162781_j66915590472098_2_alg».proof.Proof.Gen.Kernel.Frame
import proofs.«162781_j66915590472098_2_alg».proof.Proof.Gen.KernelIdeal
import proofs.«162781_j66915590472098_2_alg».proof.Proof.Gen.KernelIdeal.Skeleton
import proofs.«162781_j66915590472098_2_alg».proof.Proof.Gen.KernelIdeal.Launch
import proofs.«162781_j66915590472098_2_alg».proof.Proof.Gen.KernelIdeal.Points
import proofs.«162781_j66915590472098_2_alg».proof.Proof.Gen.KernelIdeal.Frame
import proofs.«162781_j66915590472098_2_alg».proof.Proof.Gen.ReferenceIdeal
import proofs.«162781_j66915590472098_2_alg».proof.Proof.Gen.KernelIdeal.Value
import proofs.«162781_j66915590472098_2_alg».proof.Proof.Gen.ReferenceIdeal.Run
import proofs.«162781_j66915590472098_2_alg».proof.Proof.Gen.ReferenceIdeal.Read
import proofs.«162781_j66915590472098_2_alg».proof.Proof.Gen.Pre_finite_inputs
import proofs.«162781_j66915590472098_2_alg».proof.Proof.RefCell
import proofs.«162781_j66915590472098_2_alg».proof.Proof.KernelArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the eight arguments, the kernel's two result arrays and the reference's two results are
    the next hidden state and the next cell state of the whole batch. -/
theorem algebraic : Cert.algebraic_KernelIdeal_ReferenceIdeal := by
  intro m ρ m' ρ' _ hagree
  refine ⟨fun c => Cert.KernelIdeal.Whole.hiddenOf m c, fun c => Cert.KernelIdeal.Whole.cellOf m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v39_eq, Cert.ReferenceIdeal.RefValue.hiddenArr_eq, h0, h1, h2, h3, h4, h5, h6, h7]
  · obtain ⟨h0, h1, h2, h3, h4, h5, h6, h7⟩ := hagree c
    rw [Cert.ReferenceIdeal.Read.val_main_v28_eq, Cert.ReferenceIdeal.RefValue.cellArr_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
